-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4 : Shape := ⟨2, ![8, 4]⟩
abbrev S8x2x2000000 : Shape := ⟨3, ![8, 2, 2000000]⟩
abbrev S8x2000000 : Shape := ⟨2, ![8, 2000000]⟩
abbrev S_ : Shape := ⟨0, ![]⟩

class Facts : Prop where
  bcast_S_S8x4 : S_.BroadcastsInDim S8x4 (![] : Fin 0 → Fin S8x4.rank)
  reducesTo_S8x4_S_d0_1 : S8x4.ReducesTo [0, 1] S_
  h_S_ : 0 < S_.numel
  bcast_S_S8x2000000 : S_.BroadcastsInDim S8x2000000 (![] : Fin 0 → Fin S8x2000000.rank)
  reducesTo_S8x2000000_S_d0_1 : S8x2000000.ReducesTo [0, 1] S_

variable [Facts]

def fn {F : FTy → Type} [FloatOps F] (main_arg0 : FVec F S8x4 .f32) (main_arg1 : IVec S8x2x2000000 32) (main_arg2 : FVec F S8x2000000 .f32) : IVec S_ 1 :=
  let main_v0 : FVec F S8x4 .f32 := Host.absf main_arg0
  let main_cst : FVec F S_ .f32 := constant S_ .f32 0x7F800000#32
  let main_v1 : FVec F S8x4 .f32 := broadcastInDim S8x4 ![] bcast_S_S8x4 main_cst
  let main_v2 : IVec S8x4 1 := cmpf .olt main_v0 main_v1
  let main_c : IVec S_ 1 := constantI S_ 1 1#1
  let main_v3 : IVec S_ 1 := (fun x v => Host.reduce IntOp.andi x v reducesTo_S8x4_S_d0_1 h_S_) main_v2 main_c
  let main_v4 : FVec F S8x2000000 .f32 := Host.absf main_arg2
  let main_cst_0 : FVec F S_ .f32 := constant S_ .f32 0x7F800000#32
  let main_v5 : FVec F S8x2000000 .f32 := broadcastInDim S8x2000000 ![] bcast_S_S8x2000000 main_cst_0
  let main_v6 : IVec S8x2000000 1 := cmpf .olt main_v4 main_v5
  let main_c_1 : IVec S_ 1 := constantI S_ 1 1#1
  let main_v7 : IVec S_ 1 := (fun x v => Host.reduce IntOp.andi x v reducesTo_S8x2000000_S_d0_1 h_S_) main_v6 main_c_1
  let main_v8 : IVec S_ 1 := andi main_v3 main_v7
  main_v8
-- ==== Kernel.lean ====
abbrev S8x4 : Shape := ⟨2, ![8, 4]⟩
abbrev S8x2x2000000 : Shape := ⟨3, ![8, 2, 2000000]⟩
abbrev S8x2000000 : Shape := ⟨2, ![8, 2000000]⟩
abbrev S_ : Shape := ⟨0, ![]⟩
abbrev S4 : Shape := ⟨1, ![4]⟩
abbrev S1x4 : Shape := ⟨2, ![1, 4]⟩
abbrev S4x8 : Shape := ⟨2, ![4, 8]⟩
abbrev S4x8x2000000 : Shape := ⟨3, ![4, 8, 2000000]⟩
abbrev S8x80000 : Shape := ⟨2, ![8, 80000]⟩
abbrev S4x8x80000 : Shape := ⟨3, ![4, 8, 80000]⟩
abbrev S4x8x1 : Shape := ⟨3, ![4, 8, 1]⟩
abbrev S1x8x80000 : Shape := ⟨3, ![1, 8, 80000]⟩
abbrev S4x16000000 : Shape := ⟨2, ![4, 16000000]⟩
abbrev S2x16000000 : Shape := ⟨2, ![2, 16000000]⟩
abbrev S1x2x400000 : Shape := ⟨3, ![1, 2, 400000]⟩
abbrev S2x400000 : Shape := ⟨2, ![2, 400000]⟩

abbrev nBuf : Space → Nat
  | .hbm => 21
  | .vmem => 9
  | .smem => 0
  | _ => 0

abbrev bufTy : (tb : Table) → Fin (tcTables nBuf tb) → BufTy
  | .hbm, ⟨0, _⟩ => ⟨S8x4, .f32⟩
  | .hbm, ⟨1, _⟩ => ⟨S8x2x2000000, .i32⟩
  | .hbm, ⟨2, _⟩ => ⟨S8x2000000, .f32⟩
  | .hbm, ⟨3, _⟩ => ⟨S_, .f32⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S1x4, .f32⟩
  | .hbm, ⟨9, _⟩ => ⟨S8x4, .f32⟩
  | .hbm, ⟨10, _⟩ => ⟨S8x4, .f32⟩
  | .hbm, ⟨11, _⟩ => ⟨S8x4, .f32⟩
  | .hbm, ⟨12, _⟩ => ⟨S_, .f32⟩
  | .hbm, ⟨13, _⟩ => ⟨S4, .f32⟩
  | .hbm, ⟨14, _⟩ => ⟨S1x4, .f32⟩
  | .hbm, ⟨15, _⟩ => ⟨S8x4, .f32⟩
  | .hbm, ⟨16, _⟩ => ⟨S8x4, .f32⟩
  | .hbm, ⟨17, _⟩ => ⟨S4x8, .f32⟩
  | .hbm, ⟨18, _⟩ => ⟨S4x8x2000000, .f32⟩
  | .hbm, ⟨19, _⟩ => ⟨S4x16000000, .f32⟩
  | .hbm, ⟨20, _⟩ => ⟨S2x16000000, .i32⟩
  | .local _ .vmem, ⟨0, _⟩ => ⟨S4x8, .f32⟩
  | .local _ .vmem, ⟨1, _⟩ => ⟨S8x80000, .f32⟩
  | .local _ .vmem, ⟨2, _⟩ => ⟨S8x80000, .f32⟩
  | .local _ .vmem, ⟨3, _⟩ => ⟨S4x8x80000, .f32⟩
  | .local _ .vmem, ⟨4, _⟩ => ⟨S4x8x80000, .f32⟩
  | .local _ .vmem, ⟨5, _⟩ => ⟨S1x2x400000, .i32⟩
  | .local _ .vmem, ⟨6, _⟩ => ⟨S1x2x400000, .i32⟩
  | .local _ .vmem, ⟨7, _⟩ => ⟨S2x400000, .i32⟩
  | .local _ .vmem, ⟨8, _⟩ => ⟨S2x400000, .i32⟩
  | _, _ => ⟨S8x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S4x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x80000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x8x80000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 5], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![c0_i32.toNat, v1.toNat]

abbrev stage1_0 : Fin 2 → Memref sig .tc .vmem S1x2x400000 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2x400000 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

class Facts₀ : Prop where
  reducesTo_S8x4_S4_d0 : S8x4.ReducesTo [0] S4
  h_S_ : 0 < S_.numel
  bcast_S_S4 : S_.BroadcastsInDim S4 (![] : Fin 0 → Fin S4.rank)
  bcast_S4_S1x4_1 : S4.BroadcastsInDim S1x4 (![1] : Fin 1 → Fin S1x4.rank)
  bcast_S1x4_S8x4_0_1 : S1x4.BroadcastsInDim S8x4 (![0, 1] : Fin 2 → Fin S8x4.rank)
  transposes_S8x4_S4x8_1_0 : S8x4.Transposes [1, 0] S4x8
  inb_S4x8_S4x8_0_0 : ∀ a, (![0, 0] : Fin 2 → Nat) a + S4x8.size a ≤ S4x8.size a
  h_S4x8 : 0 < S4x8.numel
  shapeCasts_S4x8_S4x8 : S4x8.ShapeCasts S4x8
  inb_S8x80000_S8x80000_0_0 : ∀ a, (![0, 0] : Fin 2 → Nat) a + S8x80000.size a ≤ S8x80000.size a
  h_S8x80000 : 0 < S8x80000.numel
  shapeCasts_S4x8_S4x8x1 : S4x8.ShapeCasts S4x8x1
  shapeCasts_S8x80000_S1x8x80000 : S8x80000.ShapeCasts S1x8x80000
  broadcasts_S4x8x1_S4x8x80000 : S4x8x1.Broadcasts S4x8x80000
  broadcasts_S1x8x80000_S4x8x80000 : S1x8x80000.Broadcasts S4x8x80000
  inb_S4x8x80000_S4x8x80000_0_0_0 : ∀ a, (![0, 0, 0] : Fin 3 → Nat) a + S4x8x80000.size a ≤ S4x8x80000.size a
  h_S4x8x80000 : 0 < S4x8x80000.numel
  shapeCasts_S4x8x2000000_S4x16000000 : S4x8x2000000.ShapeCasts S4x16000000
  inb_S1x2x400000_S1x2x400000_0_0_0 : ∀ a, (![0, 0, 0] : Fin 3 → Nat) a + S1x2x400000.size a ≤ S1x2x400000.size a
  h_S1x2x400000 : 0 < S1x2x400000.numel
  shapeCasts_S1x2x400000_S2x400000 : S1x2x400000.ShapeCasts S2x400000
  inb_S2x400000_S2x400000_0_0 : ∀ a, (![0, 0] : Fin 2 → Nat) a + S2x400000.size a ≤ S2x400000.size a
  h_S2x400000 : 0 < S2x400000.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x8.size a ≤ S4x8.size a
  hwx0_0 : ∀ i : grid0.Coords, EltTy.bits .f32 = 32 ∨ (Rect.block (s := S4x8) S4x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x80000.size a ≤ S8x2000000.size a
  hwx0_1 : ∀ i : grid0.Coords, EltTy.bits .f32 = 32 ∨ (Rect.block (s := S8x2000000) S8x80000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x8x80000.size a ≤ S4x8x2000000.size a
  hwx0_2 : ∀ i : grid0.Coords, EltTy.bits .f32 = 32 ∨ (Rect.block (s := S4x8x2000000) S4x8x80000.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2x400000.size a ≤ S8x2x2000000.size a
  hwx1_0 : ∀ i : grid1.Coords, EltTy.bits .i32 = 32 ∨ (Rect.block (s := S8x2x2000000) S1x2x400000.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x400000.size a ≤ S2x16000000.size a
  hwx1_1 : ∀ i : grid1.Coords, EltTy.bits .i32 = 32 ∨ (Rect.block (s := S2x16000000) S2x400000.size (cc1_transform_1 i) (hinb1_1 i)).WholeWords (EltTy.packing .i32)

variable [Facts₀]

abbrev win0_0 : Pipeline.Window sig grid0 :=
  Pipeline.Window.ofSpec (Memref.whole main_v11) S4x8.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x80000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4x8x80000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x2x400000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2x400000.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S8x4 : Shape := ⟨2, ![8, 4]⟩
abbrev S8x2x2000000 : Shape := ⟨3, ![8, 2, 2000000]⟩
abbrev S8x2000000 : Shape := ⟨2, ![8, 2000000]⟩
abbrev S_ : Shape := ⟨0, ![]⟩
abbrev S4 : Shape := ⟨1, ![4]⟩
abbrev S1x4 : Shape := ⟨2, ![1, 4]⟩
abbrev S4x8 : Shape := ⟨2, ![4, 8]⟩
abbrev S4x8x1 : Shape := ⟨3, ![4, 8, 1]⟩
abbrev S1x8x2000000 : Shape := ⟨3, ![1, 8, 2000000]⟩
abbrev S4x8x2000000 : Shape := ⟨3, ![4, 8, 2000000]⟩
abbrev S4x16000000 : Shape := ⟨2, ![4, 16000000]⟩
abbrev S2x8x2000000 : Shape := ⟨3, ![2, 8, 2000000]⟩
abbrev S2x16000000 : Shape := ⟨2, ![2, 16000000]⟩

abbrev nBuf : Space → Nat
  | .hbm => 26
  | .vmem => 0
  | .smem => 0
  | _ => 0

abbrev bufTy : (tb : Table) → Fin (tcTables nBuf tb) → BufTy
  | .hbm, ⟨0, _⟩ => ⟨S8x4, .f32⟩
  | .hbm, ⟨1, _⟩ => ⟨S8x2x2000000, .i32⟩
  | .hbm, ⟨2, _⟩ => ⟨S8x2000000, .f32⟩
  | .hbm, ⟨3, _⟩ => ⟨S_, .f32⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S1x4, .f32⟩
  | .hbm, ⟨9, _⟩ => ⟨S8x4, .f32⟩
  | .hbm, ⟨10, _⟩ => ⟨S8x4, .f32⟩
  | .hbm, ⟨11, _⟩ => ⟨S8x4, .f32⟩
  | .hbm, ⟨12, _⟩ => ⟨S_, .f32⟩
  | .hbm, ⟨13, _⟩ => ⟨S4, .f32⟩
  | .hbm, ⟨14, _⟩ => ⟨S1x4, .f32⟩
  | .hbm, ⟨15, _⟩ => ⟨S8x4, .f32⟩
  | .hbm, ⟨16, _⟩ => ⟨S8x4, .f32⟩
  | .hbm, ⟨17, _⟩ => ⟨S4x8, .f32⟩
  | .hbm, ⟨18, _⟩ => ⟨S4x8x1, .f32⟩
  | .hbm, ⟨19, _⟩ => ⟨S1x8x2000000, .f32⟩
  | .hbm, ⟨20, _⟩ => ⟨S4x8x2000000, .f32⟩
  | .hbm, ⟨21, _⟩ => ⟨S4x8x2000000, .f32⟩
  | .hbm, ⟨22, _⟩ => ⟨S4x8x2000000, .f32⟩
  | .hbm, ⟨23, _⟩ => ⟨S4x16000000, .f32⟩
  | .hbm, ⟨24, _⟩ => ⟨S2x8x2000000, .i32⟩
  | .hbm, ⟨25, _⟩ => ⟨S2x16000000, .i32⟩
  | _, _ => ⟨S8x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]

class Facts₀ : Prop where
  reducesTo_S8x4_S4_d0 : S8x4.ReducesTo [0] S4
  h_S_ : 0 < S_.numel
  bcast_S_S4 : S_.BroadcastsInDim S4 (![] : Fin 0 → Fin S4.rank)
  bcast_S4_S1x4_1 : S4.BroadcastsInDim S1x4 (![1] : Fin 1 → Fin S1x4.rank)
  bcast_S1x4_S8x4_0_1 : S1x4.BroadcastsInDim S8x4 (![0, 1] : Fin 2 → Fin S8x4.rank)
  transposes_S8x4_S4x8_1_0 : S8x4.Transposes [1, 0] S4x8
  bcast_S4x8_S4x8x1_0_1 : S4x8.BroadcastsInDim S4x8x1 (![0, 1] : Fin 2 → Fin S4x8x1.rank)
  bcast_S8x2000000_S1x8x2000000_1_2 : S8x2000000.BroadcastsInDim S1x8x2000000 (![1, 2] : Fin 2 → Fin S1x8x2000000.rank)
  bcast_S4x8x1_S4x8x2000000_0_1_2 : S4x8x1.BroadcastsInDim S4x8x2000000 (![0, 1, 2] : Fin 3 → Fin S4x8x2000000.rank)
  bcast_S1x8x2000000_S4x8x2000000_0_1_2 : S1x8x2000000.BroadcastsInDim S4x8x2000000 (![0, 1, 2] : Fin 3 → Fin S4x8x2000000.rank)
  shapeCasts_S4x8x2000000_S4x16000000 : S4x8x2000000.ShapeCasts S4x16000000
  transposes_S8x2x2000000_S2x8x2000000_1_0_2 : S8x2x2000000.Transposes [1, 0, 2] S2x8x2000000
  shapeCasts_S2x8x2000000_S2x16000000 : S2x8x2000000.ShapeCasts S2x16000000

variable [Facts₀]

class Facts : Prop extends Facts₀ where

variable [Facts]
-- ==== Proof.KernelRun.lean ====
/-
  The kernel program's run, read at every buffer.

  The program is four stretches in order: the host operations that build the softmax factor table, the scaling region,
  the host reshape of its output, the copying region. The contents of the device's buffers at each boundary are a fold
  from the launch memory: a host stretch applies its operations; a region replaces its windows' arrays by what its
  write-backs leave and keeps every other buffer. Every weakly fair execution terminates, without a fault, with every
  buffer that outlives the regions at the last boundary's contents.
-/
import proofs.«167241_j65472481460783_2_alg».proof.Proof.Gen.KernelIdeal.Frame

set_option maxRecDepth 16384

noncomputable section

namespace Cert.KernelIdeal.RunAt

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, and
    every buffer that is not a region's staging buffer ends at the contents of the last boundary of the fold. -/
theorem run_exit : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W4 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c b hb => h c _ (mem_uc b hb))

end Cert.KernelIdeal.RunAt

end
-- ==== Proof.BodyAt.lean ====
/-
  What each kernel body stores, read at an index of its block.

  The scaling kernel multiplies a [4, 8] table of per-(channel, relation) factors, stretched along the edge axis,
  with an [8, TE] tile of edge values, stretched along the channel axis: entry (c, r, e) of the stored block is
  factor (c, r) times value (r, e). The copying kernel stores its [1, 2, TE] tile with the leading unit axis dropped:
  entry (k, e) of the stored block is entry (0, k, e) of the tile.
-/
import proofs.«167241_j65472481460783_2_alg».proof.Proof.Gen.KernelIdeal.Skeleton
import Idealize.ShloMosaic.Lib.Pipeline.Value
import Idealize.ShloMosaic.Lib.ValueIdx
import Idealize.ShloMosaic.Lib.ValueLayout

noncomputable section

namespace Cert.KernelIdeal.BodyAt

open Idealize.ShloMosaic Idealize.ShloMosaic.ValueIdx
open Cert.KernelIdeal Cert.KernelIdeal.Gen

variable {F : FTy → Type} [FloatOps F]

/-- The scaling body's stored block at (c, r, e): the factor at (c, r) times the edge value at (r, e). -/
theorem scale_apply (x0 : Vec F S4x8 .f32) (x1 : Vec F S8x80000 .f32) (j : S4x8x80000.Idx) :
    k0_pay1 x0 x1 j = FloatOps.mulf (x0 (ix2 (j 0) (j 1))) (x1 (ix2 (j 1) (j 2))) := by
  unfold k0_pay1
  show FloatOps.mulf
      (broadcastTo S4x8x80000 (shapeCast S4x8x1 (shapeCast S4x8 x0 shapeCasts_S4x8_S4x8) shapeCasts_S4x8_S4x8x1) broadcasts_S4x8x1_S4x8x80000 j)
      (broadcastTo S4x8x80000 (shapeCast S1x8x80000 x1 shapeCasts_S8x80000_S1x8x80000) broadcasts_S1x8x80000_S4x8x80000 j) = _
  have hl : broadcastTo S4x8x80000 (shapeCast S4x8x1 (shapeCast S4x8 x0 shapeCasts_S4x8_S4x8) shapeCasts_S4x8_S4x8x1) broadcasts_S4x8x1_S4x8x80000 j
      = x0 (ix2 (j 0) (j 1)) := by
    rw [broadcastTo_apply _ broadcasts_S4x8x1_S4x8x80000 j (ix3 (j 0) (j 1) (0 : Fin 1)) (fun a => match a with
      | ⟨0, _⟩ => by show (j 0).val = if (4 : Nat) = 1 then 0 else (j 0).val; rw [if_neg (by decide)]
      | ⟨1, _⟩ => by show (j 1).val = if (8 : Nat) = 1 then 0 else (j 1).val; rw [if_neg (by decide)]
      | ⟨2, _⟩ => by show 0 = if (1 : Nat) = 1 then 0 else (j 2).val; rw [if_pos rfl])]
    rw [shapeCast_apply _ shapeCasts_S4x8_S4x8x1 (ix3 (j 0) (j 1) (0 : Fin 1)) (ix2 (j 0) (j 1)) (by
      rw [Shape.rowMajor_val_two, Shape.rowMajor_val_three]
      show (j 0).val * 8 + (j 1).val = ((j 0).val * 8 + (j 1).val) * 1 + 0
      omega), shapeCast_self]
  have hr : broadcastTo S4x8x80000 (shapeCast S1x8x80000 x1 shapeCasts_S8x80000_S1x8x80000) broadcasts_S1x8x80000_S4x8x80000 j
      = x1 (ix2 (j 1) (j 2)) := by
    rw [broadcastTo_apply _ broadcasts_S1x8x80000_S4x8x80000 j (ix3 (0 : Fin 1) (j 1) (j 2)) (fun a => match a with
      | ⟨0, _⟩ => by show 0 = if (1 : Nat) = 1 then 0 else (j 0).val; rw [if_pos rfl]
      | ⟨1, _⟩ => by show (j 1).val = if (8 : Nat) = 1 then 0 else (j 1).val; rw [if_neg (by decide)]
      | ⟨2, _⟩ => by show (j 2).val = if (80000 : Nat) = 1 then 0 else (j 2).val; rw [if_neg (by decide)])]
    exact shapeCast_ab_1ab_apply x1 shapeCasts_S8x80000_S1x8x80000 (0 : Fin 1) (j 1) (j 2)
  rw [hl, hr]

/-- The copying body's stored block at (k, e): the tile at (0, k, e). -/
theorem copy_apply (x0 : Vec F S1x2x400000 .i32) (j : S2x400000.Idx) :
    k1_pay1 x0 j = x0 (ix3 (0 : Fin 1) (j 0) (j 1)) := by
  unfold k1_pay1
  show shapeCast S2x400000 x0 shapeCasts_S1x2x400000_S2x400000 j = _
  rw [eq_ix2 j]
  exact shapeCast_1ab_ab_apply x0 shapeCasts_S1x2x400000_S2x400000 (j 0) (j 1)

end Cert.KernelIdeal.BodyAt

end
-- ==== Proof.Spec.lean ====
/-
  The two results as functions of the argument arrays, index by index.

  `scaled w ev`: the [4, 8, 2000000] array whose entry (c, r, e) is the factor w (c, r) times the edge value ev (r, e);
  the float result is this array with its last two axes merged. `endToEnd x`: the [2, 16000000] array whose entry (k, n)
  is endpoint k of edge n % 2000000 of relation n / 2000000 — the relations' edge lists laid end to end.
-/
import proofs.«167241_j65472481460783_2_alg».proof.KernelIdeal
import Idealize.ShloMosaic.Lib.ValueIdx

noncomputable section

namespace Cert.Spec

open Idealize.ShloMosaic Idealize.ShloMosaic.ValueIdx
open Cert.KernelIdeal

variable {F : FTy → Type} [FloatOps F]

/-- Factor (c, r) times edge value (r, e), over the whole [4, 8, 2000000] array. -/
def scaled (w : S4x8.Idx → Elt F .f32) (ev : S8x2000000.Idx → Elt F .f32) : S4x8x2000000.Idx → Elt F .f32 :=
  fun i => FloatOps.mulf (w (ix2 (i 0) (i 1))) (ev (ix2 (i 1) (i 2)))

/-- The relations laid end to end: entry (k, n) is endpoint k of edge n % 2000000 of relation n / 2000000. -/
def endToEnd (x : S8x2x2000000.Idx → Elt F .i32) : S2x16000000.Idx → Elt F .i32 :=
  fun i => x (ix3 (⟨(i 1).val / 2000000, by have h : (i 1).val < 16000000 := (i 1).isLt; show (i 1).val / 2000000 < 8; omega⟩ : Fin 8) (i 0)
    (⟨(i 1).val % 2000000, Nat.mod_lt _ (by decide)⟩ : Fin 2000000))

end Cert.Spec

end
-- ==== Proof.ScaleRegion.lean ====
/-
  The scaling region as one whole-array function.

  The grid walks the edge axis in 25 tiles of 80000 edges. At tile t the body reads the whole [4, 8] factor table and
  columns 80000·t … 80000·t + 79999 of the [8, 2000000] edge values, and writes columns 80000·t … of every (channel,
  relation) row of the [4, 8, 2000000] output. So every point writes its block of ONE array, "factor (c, r) times edge
  value (r, e)", and the 25 blocks tile the output: the output ends as that array, whatever the region was entered with.
-/
import proofs.«167241_j65472481460783_2_alg».proof.Proof.Gen.KernelIdeal.Frame
import proofs.«167241_j65472481460783_2_alg».proof.Proof.BodyAt
import proofs.«167241_j65472481460783_2_alg».proof.Proof.Spec

set_option maxRecDepth 16384

noncomputable section

namespace Cert.KernelIdeal.ScaleRegion

open Idealize.ShloMosaic Idealize.ShloMosaic.TcCoe Idealize.ShloMosaic.ValueIdx Idealize.SL.Sem
open Idealize.ShloMosaic.Pipeline (Dat)
open Cert.KernelIdeal Cert.KernelIdeal.Gen Cert.Spec

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The stored block agrees with `scaled` wherever the loaded tiles agree with the arrays. -/
theorem block_at (x0 : Vec F S4x8 .f32) (x1 : Vec F S8x80000 .f32) (w : S4x8.Idx → Elt F .f32)
    (ev : S8x2000000.Idx → Elt F .f32) (j : S4x8x80000.Idx) (i : S4x8x2000000.Idx)
    (h0 : x0 (ix2 (j 0) (j 1)) = w (ix2 (i 0) (i 1))) (h1 : x1 (ix2 (j 1) (j 2)) = ev (ix2 (i 1) (i 2))) :
    k0_pay1 x0 x1 j = scaled w ev i := by
  rw [BodyAt.scale_apply, h0, h1]; rfl

/-- The block indices of the three windows at grid point t: the factor table is always block (0, 0); the edge values'
    block is (0, t); the output's block is (0, 0, t). -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 3) = 0 ∧ win0_2.index t (1 : Fin 3) = 0 ∧ win0_2.index t (2 : Fin 3) = t.val :=
  (by decide +kernel : ∀ t : Fin grid0.N, _)

variable (V : (c : Dev nD) → (b : Ref sig .tc) → Buf (Elt F) ((c : Thread nD τ).loc b))

/-- What point t writes back is block t of `scaled` of the factor table and the edge values as the region finds them. -/
theorem flushed_eq (c : Dev nD) (t : Fin cfg0.N) :
    (dat0 V c).flushed 2 t = ((cfg0.win 2).blk t).view.read (Elt F) (scaled (V c main_v11) (V c main_arg2)) := by
  show (cfg0.win 2).cut (grid0.coords t) ((dat0 V c).after 2 t) = _
  rw [after0_2]
  unfold out0_2
  rw [View.canon_unit_zero hz3]
  simp only [View.ld_unit_zero (S := S4x8) hz2, View.ld_unit_zero (S := S8x80000) hz2]
  obtain ⟨e00, e01, e10, e11, e20, e21, e22⟩ := idx_facts t
  funext j
  show k0_pay1 (iblk0 V c 0 t) (iblk0 V c 1 t) j = scaled (V c main_v11) (V c main_arg2) (((cfg0.win 2).blk t).view.emb j)
  refine block_at _ _ _ _ j _ ?_ ?_
  · show V c main_v11 (((cfg0.win 0).blk t).view.emb (ix2 (j 0) (j 1))) = V c main_v11 _
    refine congrArg (V c main_v11) (funext fun a => Fin.ext ?_)
    match a with
    | ⟨0, _⟩ => show win0_0.index t (0 : Fin 2) * 4 + 1 * (j 0).val = win0_2.index t (0 : Fin 3) * 4 + 1 * (j 0).val; omega
    | ⟨1, _⟩ => show win0_0.index t (1 : Fin 2) * 8 + 1 * (j 1).val = win0_2.index t (1 : Fin 3) * 8 + 1 * (j 1).val; omega
  · show V c main_arg2 (((cfg0.win 1).blk t).view.emb (ix2 (j 1) (j 2))) = V c main_arg2 _
    refine congrArg (V c main_arg2) (funext fun a => Fin.ext ?_)
    match a with
    | ⟨0, _⟩ => show win0_1.index t (0 : Fin 2) * 8 + 1 * (j 1).val = win0_2.index t (1 : Fin 3) * 8 + 1 * (j 1).val; omega
    | ⟨1, _⟩ => show win0_1.index t (1 : Fin 2) * 80000 + 1 * (j 2).val = win0_2.index t (2 : Fin 3) * 80000 + 1 * (j 2).val; omega

/-- An index of the output is in point t's block iff each coordinate is in the block's range on its axis. -/
theorem mem_blk (t : Fin cfg0.N) (i : S4x8x2000000.Idx) :
    i ∈ ((cfg0.win 2).blk t).view.set ↔ ∀ a : Fin 3, win0_2.index t a * S4x8x80000.size a ≤ (i a).val ∧ (i a).val < win0_2.index t a * S4x8x80000.size a + S4x8x80000.size a := by
  show i ∈ ((View.whole main_v12).slice (win0_2.rect t)).set ↔ _
  rw [View.set_slice_whole, Rect.mem_set_unit]
  exact Iff.rfl

/-- Every index of the output is in the block of the point its edge coordinate's tile names. -/
theorem cover (i : S4x8x2000000.Idx) :
    ∃ t : Fin cfg0.N, (cfg0.win 2).flush t = true ∧ i ∈ ((cfg0.win 2).blk t).view.set := by
  have h0 : (i 0).val < 4 := (i 0).isLt
  have h1 : (i 1).val < 8 := (i 1).isLt
  have h2 : (i 2).val < 2000000 := (i 2).isLt
  refine ⟨⟨(i 2).val / 80000, by show (i 2).val / 80000 < 25; omega⟩, flush0_2 _, ?_⟩
  rw [mem_blk]
  obtain ⟨-, -, -, -, e20, e21, e22⟩ := idx_facts ⟨(i 2).val / 80000, by show (i 2).val / 80000 < 25; omega⟩
  intro a
  match a with
  | ⟨0, _⟩ => show win0_2.index _ (0 : Fin 3) * 4 ≤ (i 0).val ∧ (i 0).val < win0_2.index _ (0 : Fin 3) * 4 + 4; rw [e20]; omega
  | ⟨1, _⟩ => show win0_2.index _ (1 : Fin 3) * 8 ≤ (i 1).val ∧ (i 1).val < win0_2.index _ (1 : Fin 3) * 8 + 8; rw [e21]; omega
  | ⟨2, _⟩ => show win0_2.index _ (2 : Fin 3) * 80000 ≤ (i 2).val ∧ (i 2).val < win0_2.index _ (2 : Fin 3) * 80000 + 80000; rw [e22]; show (i 2).val / 80000 * 80000 ≤ (i 2).val ∧ (i 2).val < (i 2).val / 80000 * 80000 + 80000; omega

/-- The output array when the region is left: factor times edge value, everywhere. -/
theorem final (c : Dev nD) : (dat0 V c).arrAt 2 cfg0.N = scaled (V c main_v11) (V c main_arg2) :=
  (dat0 V c).arrAt_eq_of_cover 2 (scaled (V c main_v11) (V c main_arg2)) (fun t _ => flushed_eq V c t) cover

end Cert.KernelIdeal.ScaleRegion

end
-- ==== Proof.CopyRegion.lean ====
/-
  The copying region as one whole-array function.

  The grid is 8 relations by 5 tiles of 400000 edges, walked relation-major: point t is relation t / 5, tile t % 5. At
  point t the body reads both endpoint rows of relation t / 5 over edges 400000·(t % 5) … and writes them, unchanged,
  to columns 400000·t … of the [2, 16000000] output. Column n of the output therefore holds relation n / 2000000,
  edge n % 2000000: the relations laid end to end. The 40 blocks tile the output.
-/
import proofs.«167241_j65472481460783_2_alg».proof.Proof.Gen.KernelIdeal.Frame
import proofs.«167241_j65472481460783_2_alg».proof.Proof.BodyAt
import proofs.«167241_j65472481460783_2_alg».proof.Proof.Spec

set_option maxRecDepth 16384

noncomputable section

namespace Cert.KernelIdeal.CopyRegion

open Idealize.ShloMosaic Idealize.ShloMosaic.TcCoe Idealize.ShloMosaic.ValueIdx Idealize.SL.Sem
open Idealize.ShloMosaic.Pipeline (Dat)
open Cert.KernelIdeal Cert.KernelIdeal.Gen Cert.Spec

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The stored block agrees with `endToEnd` wherever the loaded tile agrees with the array. -/
theorem block_at (x0 : Vec F S1x2x400000 .i32) (x : S8x2x2000000.Idx → Elt F .i32) (j : S2x400000.Idx)
    (i : S2x16000000.Idx) (k : S8x2x2000000.Idx)
    (hk0 : (k 0).val = (i 1).val / 2000000) (hk1 : (k 1).val = (i 0).val) (hk2 : (k 2).val = (i 1).val % 2000000)
    (h0 : x0 (ix3 (0 : Fin 1) (j 0) (j 1)) = x k) :
    k1_pay1 x0 j = endToEnd x i := by
  rw [BodyAt.copy_apply, h0]
  unfold endToEnd
  refine congrArg x (funext fun a => Fin.ext ?_)
  match a with
  | ⟨0, _⟩ => exact hk0
  | ⟨1, _⟩ => exact hk1
  | ⟨2, _⟩ => exact hk2

/-- The block indices of the two windows at grid point t: the input's block is (t / 5, 0, t % 5), the output's (0, t). -/
theorem idx_facts : ∀ t : Fin cfg1.N, win1_0.index t (0 : Fin 3) = t.val / 5 ∧ win1_0.index t (1 : Fin 3) = 0
    ∧ win1_0.index t (2 : Fin 3) = t.val % 5
    ∧ win1_1.index t (0 : Fin 2) = 0 ∧ win1_1.index t (1 : Fin 2) = t.val :=
  (by decide +kernel : ∀ t : Fin grid1.N, _)

variable (V : (c : Dev nD) → (b : Ref sig .tc) → Buf (Elt F) ((c : Thread nD τ).loc b))

/-- What point t writes back is block t of `endToEnd` of the edge index array as the region finds it. -/
theorem flushed_eq (c : Dev nD) (t : Fin cfg1.N) :
    (dat1 V c).flushed 1 t = ((cfg1.win 1).blk t).view.read (Elt F) (endToEnd (V c main_arg1)) := by
  show (cfg1.win 1).cut (grid1.coords t) ((dat1 V c).after 1 t) = _
  rw [after1_1]
  unfold out1_1
  rw [View.canon_unit_zero hz2]
  simp only [View.ld_unit_zero (S := S1x2x400000) hz3]
  obtain ⟨e00, e01, e02, e10, e11⟩ := idx_facts t
  have ht : t.val < 40 := t.isLt
  funext j
  have hj0 : (j 0).val < 2 := (j 0).isLt
  have hj1 : (j 1).val < 400000 := (j 1).isLt
  show k1_pay1 (iblk1 V c 0 t) j = endToEnd (V c main_arg1) (((cfg1.win 1).blk t).view.emb j)
  refine block_at _ _ j _ (((cfg1.win 0).blk t).view.emb (ix3 (0 : Fin 1) (j 0) (j 1))) ?_ ?_ ?_ rfl
  · show win1_0.index t (0 : Fin 3) * 1 + 1 * 0 = (win1_1.index t (1 : Fin 2) * 400000 + 1 * (j 1).val) / 2000000
    omega
  · show win1_0.index t (1 : Fin 3) * 2 + 1 * (j 0).val = win1_1.index t (0 : Fin 2) * 2 + 1 * (j 0).val
    omega
  · show win1_0.index t (2 : Fin 3) * 400000 + 1 * (j 1).val = (win1_1.index t (1 : Fin 2) * 400000 + 1 * (j 1).val) % 2000000
    omega

/-- An index of the output is in point t's block iff each coordinate is in the block's range on its axis. -/
theorem mem_blk (t : Fin cfg1.N) (i : S2x16000000.Idx) :
    i ∈ ((cfg1.win 1).blk t).view.set ↔ ∀ a : Fin 2, win1_1.index t a * S2x400000.size a ≤ (i a).val ∧ (i a).val < win1_1.index t a * S2x400000.size a + S2x400000.size a := by
  show i ∈ ((View.whole main_v14).slice (win1_1.rect t)).set ↔ _
  rw [View.set_slice_whole, Rect.mem_set_unit]
  exact Iff.rfl

/-- Every index of the output is in the block of the point its column's tile names. -/
theorem cover (i : S2x16000000.Idx) :
    ∃ t : Fin cfg1.N, (cfg1.win 1).flush t = true ∧ i ∈ ((cfg1.win 1).blk t).view.set := by
  have h0 : (i 0).val < 2 := (i 0).isLt
  have h1 : (i 1).val < 16000000 := (i 1).isLt
  refine ⟨⟨(i 1).val / 400000, by show (i 1).val / 400000 < 40; omega⟩, flush1_1 _, ?_⟩
  rw [mem_blk]
  obtain ⟨-, -, -, e10, e11⟩ := idx_facts ⟨(i 1).val / 400000, by show (i 1).val / 400000 < 40; omega⟩
  intro a
  match a with
  | ⟨0, _⟩ => show win1_1.index _ (0 : Fin 2) * 2 ≤ (i 0).val ∧ (i 0).val < win1_1.index _ (0 : Fin 2) * 2 + 2; rw [e10]; omega
  | ⟨1, _⟩ => show win1_1.index _ (1 : Fin 2) * 400000 ≤ (i 1).val ∧ (i 1).val < win1_1.index _ (1 : Fin 2) * 400000 + 400000; rw [e11]; show (i 1).val / 400000 * 400000 ≤ (i 1).val ∧ (i 1).val < (i 1).val / 400000 * 400000 + 400000; omega

/-- The output array when the region is left: the relations laid end to end. -/
theorem final (c : Dev nD) : (dat1 V c).arrAt 1 cfg1.N = endToEnd (V c main_arg1) :=
  (dat1 V c).arrAt_eq_of_cover 1 (endToEnd (V c main_arg1)) (fun t _ => flushed_eq V c t) cover

end Cert.KernelIdeal.CopyRegion

end
-- ==== Proof.KernelValue.lean ====
/-
  The kernel program's two results as functions of the launch memory.

  Reading the fold of buffer contents back from the last boundary: the integer result is the copying region's output
  array, which is the edge index array's relations laid end to end, and the edge index array is still the launch one
  there (no host operation and no earlier region writes it). The float result is the host reshape of the scaling
  region's output array, which is "factor times edge value" of the factor table and the edge values as that region
  finds them: the edge values are the launch ones, and the factor table is what the first host stretch computes from
  the launch weights — the transposed softmax table, the same chain of operations the reference applies.
-/
import proofs.«167241_j65472481460783_2_alg».proof.Proof.KernelRun
import proofs.«167241_j65472481460783_2_alg».proof.Proof.ScaleRegion
import proofs.«167241_j65472481460783_2_alg».proof.Proof.CopyRegion
import proofs.«167241_j65472481460783_2_alg».proof.Proof.Gen.ReferenceIdeal.Read
import Idealize.ShloMosaic.Lib.StableHlo.Run

set_option maxRecDepth 16384

noncomputable section

namespace Cert.KernelIdeal.Results

open Idealize.ShloMosaic Idealize.ShloMosaic.TcCoe Idealize.SL.Sem Idealize.ShloMosaic.StableHlo
open Idealize.ShloMosaic.Pipeline (Dat)
open Cert.KernelIdeal Cert.KernelIdeal.Gen Cert.Spec

variable {F : FTy → Type} [FloatOps F]
variable (m : (ℓ : Loc nD τ sig) → Buf (Elt F) ℓ) (ρ : Dev nD → PrngReg)

/-- The factor table the scaling region finds is the transposed softmax table of the launch weights. -/
theorem table_at_entry (c : Dev nD) :
    V1 m ρ c main_v11 = Cert.ReferenceIdeal.Read.val_main_v11 (F := F) (m ((c.tc : Thread nD τ).loc main_arg0)) := by
  show StableHlo.after hostOps0 (W0 m ρ c) (Proc.devRef .tc main_v11) = _
  after_results
  rfl

/-- The edge values the scaling region finds are the launch ones. -/
theorem values_at_entry (c : Dev nD) : V1 m ρ c main_arg2 = m ((c.tc : Thread nD τ).loc main_arg2) := by
  show StableHlo.after hostOps0 (W0 m ρ c) (Proc.devRef .tc main_arg2) = _
  after_results

/-- The edge index array the copying region finds is the launch one. -/
theorem index_at_entry (c : Dev nD) : V3 m ρ c main_arg1 = m ((c.tc : Thread nD τ).loc main_arg1) :=
  ((W4_arr m ρ c 0).trans (((dat1 (V3 m ρ) c).arrAt_in 0 rfl _).trans (A_eq1 (V3 m ρ) c 0))).symm.trans (W4_main_arg1 m ρ c)

/-- The integer result at the last boundary: the launch edge index array's relations laid end to end. -/
theorem index_result (c : Dev nD) :
    W4 m ρ c (Proc.devRef .tc main_v14) = endToEnd (m ((c.tc : Thread nD τ).loc main_arg1)) :=
  (W4_arr m ρ c 1).trans ((CopyRegion.final (V3 m ρ) c).trans (congrArg endToEnd (index_at_entry m ρ c)))

/-- The float result at the last boundary: factor times edge value, the last two axes merged. -/
theorem vals_result (c : Dev nD) :
    W4 m ρ c (Proc.devRef .tc main_v13)
      = shapeCast S4x16000000 (scaled (Cert.ReferenceIdeal.Read.val_main_v11 (F := F) (m ((c.tc : Thread nD τ).loc main_arg0)))
          (m ((c.tc : Thread nD τ).loc main_arg2))) shapeCasts_S4x8x2000000_S4x16000000 := by
  have e : W2 m ρ c (Proc.devRef .tc main_v12) = scaled (V1 m ρ c main_v11) (V1 m ρ c main_arg2) :=
    (W2_arr m ρ c 2).trans (ScaleRegion.final (V1 m ρ) c)
  rw [W4_of_ne m ρ c main_v13 (by decide)]
  show StableHlo.after hostOps1 (W2 m ρ c) (Proc.devRef .tc main_v13) = _
  after_results
  rw [e, table_at_entry, values_at_entry]
  rfl

end Cert.KernelIdeal.Results

end
-- ==== Proof.RefValue.lean ====
/-
  The reference's two results are the same two functions of the arguments.

  Its float result is the reshape of "transposed softmax table, stretched along the edge axis, times edge values,
  stretched along the channel axis": entry (c, r, e) of the product is table (c, r) times value (r, e). Its integer
  result is the edge index array with its first two axes swapped, then the relation and edge axes merged: entry (k, n)
  of the merged array is entry (k, n / 2000000, n % 2000000) of the swapped one, that is endpoint k of edge
  n % 2000000 of relation n / 2000000.
-/
import proofs.«167241_j65472481460783_2_alg».proof.Proof.Gen.ReferenceIdeal.Read
import proofs.«167241_j65472481460783_2_alg».proof.Proof.Spec

noncomputable section

namespace Cert.ReferenceIdeal.RefValue

open Idealize.ShloMosaic Idealize.ShloMosaic.ValueIdx
open Cert.ReferenceIdeal Cert.ReferenceIdeal.Gen Cert.ReferenceIdeal.Read Cert.Spec

variable {F : FTy → Type} [FloatOps F]

/-- The reference's product array is `scaled` of its transposed softmax table and the edge values. -/
theorem product_eq (x0 : S8x4.Idx → Elt F .f32) (x2 : S8x2000000.Idx → Elt F .f32) :
    val_main_v16 (F := F) x0 x2 = scaled (val_main_v11 (F := F) x0) x2 := by
  funext i
  rw [val_main_v16_apply, val_main_v14_apply, val_main_v12_apply, val_main_v15_apply, val_main_v13_apply]
  unfold scaled
  refine congrArg₂ FloatOps.mulf (congrArg _ (funext fun a => Fin.ext ?_)) (congrArg _ (funext fun a => Fin.ext ?_))
  · match a with
    | ⟨0, _⟩ => rfl
    | ⟨1, _⟩ => rfl
  · match a with
    | ⟨0, _⟩ => rfl
    | ⟨1, _⟩ => rfl

/-- The reference's float result: `scaled` with its last two axes merged. -/
theorem vals_eq (x0 : S8x4.Idx → Elt F .f32) (x2 : S8x2000000.Idx → Elt F .f32) :
    val_main_v17 (F := F) x0 x2
      = shapeCast S4x16000000 (scaled (val_main_v11 (F := F) x0) x2) shapeCasts_S4x8x2000000_S4x16000000 := by
  unfold val_main_v17
  rw [product_eq]

/-- The reference's integer result: the relations laid end to end. -/
theorem index_eq (x1 : S8x2x2000000.Idx → Elt F .i32) : val_main_v19 (F := F) x1 = endToEnd x1 := by
  funext i
  rw [val_main_v19_apply, val_main_v18_apply]
  unfold endToEnd
  have h0 : (i 0).val < 2 := (i 0).isLt
  have h1 : (i 1).val < 16000000 := (i 1).isLt
  refine congrArg x1 (funext fun a => Fin.ext ?_)
  match a with
  | ⟨0, _⟩ => show ((i 0).val * 16000000 + (i 1).val) / 2000000 % 8 = (i 1).val / 2000000; omega
  | ⟨1, _⟩ => show ((i 0).val * 16000000 + (i 1).val) / 16000000 = (i 0).val; omega
  | ⟨2, _⟩ => show ((i 0).val * 16000000 + (i 1).val) % 2000000 = (i 1).val % 2000000; omega

end Cert.ReferenceIdeal.RefValue

end
-- ==== Proof.lean ====
/-
  Softmax-weighted edge scaling and relation-major concatenation: the kernel program against its jnp reference, at the
  ideal instance.

  Both programs first form the softmax of the [8, 4] weights over the relation axis and transpose it to a [4, 8]
  factor table, by the same chain of host operations. The kernel program then runs two regions. The scaling region
  writes, tile by tile along the edge axis, factor (c, r) times edge value (r, e) into a [4, 8, 2000000] array, which a
  host reshape flattens to [4, 16000000]; the reference multiplies the two stretched arrays and reshapes. The copying
  region writes both endpoint rows of each relation, tile by tile, to the columns of a [2, 16000000] array where that
  relation's edges belong when the relations are laid end to end; the reference swaps the first two axes of the edge
  index array and merges the relation and edge axes. Index by index the two float results are one product of the same
  two numbers and the two integer results are one entry of the edge index array, so no property of the inputs is used.

  The frames of the two kernel programs are the generated ones; the reference's is its generated run with the results
  dropped; the idealization rewrote nothing, so it preserves the kernel trivially.
-/
import proofs.«167241_j65472481460783_2_alg».proof.Defs
import proofs.«167241_j65472481460783_2_alg».proof.Proof.Gen.Kernel
import proofs.«167241_j65472481460783_2_alg».proof.Proof.Gen.Kernel.Frame
import proofs.«167241_j65472481460783_2_alg».proof.Proof.Gen.KernelIdeal
import proofs.«167241_j65472481460783_2_alg».proof.Proof.Gen.KernelIdeal.Frame
import proofs.«167241_j65472481460783_2_alg».proof.Proof.Gen.ReferenceIdeal
import proofs.«167241_j65472481460783_2_alg».proof.Proof.Gen.ReferenceIdeal.Run
import proofs.«167241_j65472481460783_2_alg».proof.Proof.Gen.ReferenceIdeal.Read
import proofs.«167241_j65472481460783_2_alg».proof.Proof.Gen.Pre_finite_inputs
import proofs.«167241_j65472481460783_2_alg».proof.Proof.KernelValue
import proofs.«167241_j65472481460783_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the integer result at the launch edge index array's
    relations laid end to end, and the float result at "softmax factor times edge value" with its last two axes merged. -/
theorem algebraic : Cert.algebraic_KernelIdeal_ReferenceIdeal := by
  intro m ρ m' ρ' _ hagree
  refine ⟨fun c => Cert.Spec.endToEnd (m ((c.tc : Thread Cert.KernelIdeal.nD Cert.KernelIdeal.τ).loc Cert.KernelIdeal.main_arg1)),
    fun c => shapeCast Cert.KernelIdeal.S4x16000000
      (Cert.Spec.scaled (Cert.ReferenceIdeal.Read.val_main_v11 (F := Ideal) (m ((c.tc : Thread Cert.KernelIdeal.nD Cert.KernelIdeal.τ).loc Cert.KernelIdeal.main_arg0)))
        (m ((c.tc : Thread Cert.KernelIdeal.nD Cert.KernelIdeal.τ).loc Cert.KernelIdeal.main_arg2)))
      Cert.KernelIdeal.Gen.shapeCasts_S4x8x2000000_S4x16000000, ?_, ?_⟩
  · refine (θ_run Cert.KernelIdeal.defs _ _).mono (fun r h c => ?_) (Cert.KernelIdeal.RunAt.run_exit (F := Ideal) m ρ)
    exact ⟨(h c Cert.KernelIdeal.main_v14 (by decide)).trans (Cert.KernelIdeal.Results.index_result m ρ c),
      (h c Cert.KernelIdeal.main_v13 (by decide)).trans (Cert.KernelIdeal.Results.vals_result m ρ c),
      (h c Cert.KernelIdeal.main_arg0 (by decide)).trans (Cert.KernelIdeal.Gen.W4_main_arg0 m ρ c),
      (h c Cert.KernelIdeal.main_arg1 (by decide)).trans (Cert.KernelIdeal.Gen.W4_main_arg1 m ρ c),
      (h c Cert.KernelIdeal.main_arg2 (by decide)).trans (Cert.KernelIdeal.Gen.W4_main_arg2 m ρ c)⟩
  · refine (θ_run Cert.ReferenceIdeal.defs _ _).mono (fun r h c => ?_) (Cert.ReferenceIdeal.Value.run (F := Ideal) m' ρ')
    obtain ⟨h19, h17, hargs⟩ := h c
    obtain ⟨a0, a1, a2⟩ := hagree c
    refine ⟨?_, ?_, hargs⟩
    · refine h19.trans ((Cert.ReferenceIdeal.Read.val_main_v19_eq _).trans ((Cert.ReferenceIdeal.RefValue.index_eq _).trans ?_))
      rw [a1]
    · refine h17.trans ((Cert.ReferenceIdeal.Read.val_main_v17_eq _ _).trans ((Cert.ReferenceIdeal.RefValue.vals_eq _ _).trans ?_))
      rw [a0, a2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
